-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x64 .f32) (main_arg3 : FVec F S4096x64 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256x64 : Shape := ⟨2, ![256, 64]⟩
abbrev S1x256 : Shape := ⟨2, ![1, 256]⟩
abbrev S256x256 : Shape := ⟨2, ![256, 256]⟩
abbrev S256x64x1 : Shape := ⟨3, ![256, 64, 1]⟩
abbrev S256x64x64 : Shape := ⟨3, ![256, 64, 64]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S4096x64, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S4096x64.size a
  hwx0_3 : ∀ i : grid0.Coords, EltTy.bits .f32 = 32 ∨ (Rect.block (s := S4096x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S8192x4096.size a
  hwx0_5 : ∀ i : grid0.Coords, EltTy.bits .f32 = 32 ∨ (Rect.block (s := S8192x4096) S256x256.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S4096 : Shape := ⟨1, ![4096]⟩
abbrev S4096x64x64 : Shape := ⟨3, ![4096, 64, 64]⟩
abbrev S4096x64x1 : Shape := ⟨3, ![4096, 64, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S4096x64, .f32⟩
  | .hbm, ⟨4, _⟩ => ⟨S4096, .f32⟩
  | .hbm, ⟨5, _⟩ => ⟨S4096x4096, .f32⟩
  | .hbm, ⟨6, _⟩ => ⟨S4096x64x64, .f32⟩
  | .hbm, ⟨7, _⟩ => ⟨S4096x64x1, .f32⟩
  | .hbm, ⟨8, _⟩ => ⟨S4096x64x64, .f32⟩
  | .hbm, ⟨9, _⟩ => ⟨S4096x64x64, .f32⟩
  | .hbm, ⟨10, _⟩ => ⟨S4096x64x1, .f32⟩
  | .hbm, ⟨11, _⟩ => ⟨S4096x64x64, .f32⟩
  | .hbm, ⟨12, _⟩ => ⟨S4096x64x64, .f32⟩
  | .hbm, ⟨13, _⟩ => ⟨S4096x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute, on the extended reals.

  A weight row `n` is stored as integer codes `q n k` together with one scale and one zero point per GROUP of 64
  consecutive positions `k`: the weight is `(q n k − zp n (k / 64)) · sc n (k / 64)`. The layer is
  `out r n = Σ_k x r k · weight n k + bias n`, a sum over the 4096 positions of row `r` of the activations.

  Stated twice: over a two-axis activation array of any number of rows (`dotAt`: one block of rows against one block
  of weight rows, or the whole flattened array), and over the three-axis array `[4, 2048, 4096]` the programs take
  (`outAt`, `out`). `out_flat` is the law that joins them: flattening the two leading axes of the activations,
  computing row by row, and splitting the rows again is the three-axis function — row `p · 2048 + s` of the
  flattened array is row `(p, s)`.
-/
import Idealize.ShloMosaic.PureOps.Ideal
import Idealize.ShloMosaic.Lib.ValueIdx
import Idealize.ShloMosaic.Lib.Pipeline.Value

noncomputable section

namespace Cert.DequantLinear

open Idealize.ShloMosaic Idealize.ShloMosaic.ValueIdx

/-- The group of a position: 64 consecutive positions share one scale and one zero point. -/
def grp (k : Fin 4096) : Fin 64 := ⟨k.val / 64, by have := k.isLt; omega⟩

theorem grp_val (k : Fin 4096) : (grp k).val = k.val / 64 := rfl

/-- The weight at row `n`, position `k`: the integer code, read signed, less its group's zero point, times its group's
    scale. -/
def weight {N : Nat} (q : (⟨2, ![N, 4096]⟩ : Shape).Idx → BitVec 32) (sc zp : (⟨2, ![N, 64]⟩ : Shape).Idx → EReal)
    (n : Fin N) (k : Fin 4096) : EReal :=
  ((((q (ix2 n k)).toInt : ℝ) : EReal) - zp (ix2 n (grp k))) * sc (ix2 n (grp k))

/-- Row `r` of the activations against weight row `n`, plus the bias of column `n` (the bias a one-row array). -/
def dotAt {M N : Nat} (x : (⟨2, ![M, 4096]⟩ : Shape).Idx → EReal) (q : (⟨2, ![N, 4096]⟩ : Shape).Idx → BitVec 32)
    (sc zp : (⟨2, ![N, 64]⟩ : Shape).Idx → EReal) (b : (⟨2, ![1, N]⟩ : Shape).Idx → EReal) (r : Fin M) (n : Fin N) : EReal :=
  (∑ k : Fin 4096, x (ix2 r k) * weight q sc zp n k) + b (ix2 0 n)

/-- The same over the whole two-axis array, as a function of the index. -/
def dot {M N : Nat} (x : (⟨2, ![M, 4096]⟩ : Shape).Idx → EReal) (q : (⟨2, ![N, 4096]⟩ : Shape).Idx → BitVec 32)
    (sc zp : (⟨2, ![N, 64]⟩ : Shape).Idx → EReal) (b : (⟨2, ![1, N]⟩ : Shape).Idx → EReal) :
    (⟨2, ![M, N]⟩ : Shape).Idx → EReal := fun j => dotAt x q sc zp b (j 0) (j 1)

/-- The layer on the three-axis activations: entry `(p, s, n)`. -/
def outAt (x : (⟨3, ![4, 2048, 4096]⟩ : Shape).Idx → EReal) (q : (⟨2, ![4096, 4096]⟩ : Shape).Idx → BitVec 32)
    (sc zp : (⟨2, ![4096, 64]⟩ : Shape).Idx → EReal) (b : (⟨1, ![4096]⟩ : Shape).Idx → EReal)
    (p : Fin 4) (s : Fin 2048) (n : Fin 4096) : EReal :=
  (∑ k : Fin 4096, x (ix3 p s k) * weight q sc zp n k) + b (ix1 n)

/-- The layer's result array. -/
def out (x : (⟨3, ![4, 2048, 4096]⟩ : Shape).Idx → EReal) (q : (⟨2, ![4096, 4096]⟩ : Shape).Idx → BitVec 32)
    (sc zp : (⟨2, ![4096, 64]⟩ : Shape).Idx → EReal) (b : (⟨1, ![4096]⟩ : Shape).Idx → EReal) :
    (⟨3, ![4, 2048, 4096]⟩ : Shape).Idx → EReal := fun i => outAt x q sc zp b (i 0) (i 1) (i 2)

/-- Row `p · 2048 + s` of the flattened activations. -/
def flatRow (p : Fin 4) (s : Fin 2048) : Fin 8192 := ⟨p.val * 2048 + s.val, by have := p.isLt; have := s.isLt; omega⟩

/-- FLATTEN, COMPUTE ROW BY ROW, SPLIT AGAIN is the three-axis layer: the activations reshaped to `[8192, 4096]`, the
    bias to one row `[1, 4096]`, the two-axis result reshaped back to `[4, 2048, 4096]`. A reshape keeps the row-major
    position, so entry `(p, s, n)` of the result is entry `(p · 2048 + s, n)` of the two-axis one, whose activation
    row is row `(p, s)`. -/
theorem out_flat (x : (⟨3, ![4, 2048, 4096]⟩ : Shape).Idx → EReal) (q : (⟨2, ![4096, 4096]⟩ : Shape).Idx → BitVec 32)
    (sc zp : (⟨2, ![4096, 64]⟩ : Shape).Idx → EReal) (b : (⟨1, ![4096]⟩ : Shape).Idx → EReal)
    (hx : (⟨3, ![4, 2048, 4096]⟩ : Shape).ShapeCasts ⟨2, ![8192, 4096]⟩)
    (hb : (⟨1, ![4096]⟩ : Shape).ShapeCasts ⟨2, ![1, 4096]⟩)
    (ho : (⟨2, ![8192, 4096]⟩ : Shape).ShapeCasts ⟨3, ![4, 2048, 4096]⟩) :
    shapeCast (⟨3, ![4, 2048, 4096]⟩ : Shape) (dot (shapeCast (⟨2, ![8192, 4096]⟩ : Shape) x hx) q sc zp
        (shapeCast (⟨2, ![1, 4096]⟩ : Shape) b hb)) ho
      = out x q sc zp b := by
  funext i
  obtain ⟨p, s, n, rfl⟩ : ∃ (p : Fin 4) (s : Fin 2048) (n : Fin 4096), i = ix3 p s n := ⟨i 0, i 1, i 2, eq_ix3 i⟩
  refine (shapeCast_apply _ ho (ix3 p s n) (ix2 (flatRow p s) n) ?_).trans ?_
  · rw [Shape.rowMajor_val_two, Shape.rowMajor_val_three]; rfl
  · show (∑ k : Fin 4096, shapeCast (⟨2, ![8192, 4096]⟩ : Shape) x hx (ix2 (flatRow p s) k) * weight q sc zp n k)
        + shapeCast (⟨2, ![1, 4096]⟩ : Shape) b hb (ix2 0 n)
      = (∑ k : Fin 4096, x (ix3 p s k) * weight q sc zp n k) + b (ix1 n)
    congr 1
    · refine Finset.sum_congr rfl fun k _ => ?_
      rw [shapeCast_apply x hx (ix2 (flatRow p s) k) (ix3 p s k)
        (by rw [Shape.rowMajor_val_two, Shape.rowMajor_val_three]; rfl)]
    · exact shapeCast_apply b hb (ix2 0 n) (ix1 n)
        (by rw [Shape.rowMajor_val_one, Shape.rowMajor_val_two]; show n.val = 0 * 4096 + n.val; omega)

end Cert.DequantLinear

end
-- ==== Proof.RefSpec.lean ====
/-
  The reference computes the layer: its last stage, read at entry `(p, s, n)`, is
  `Σ_k x (p, s, k) · ((q (n, k) − zp (n, k / 64)) · sc (n, k / 64)) + bias n`.

  The reference reshapes the codes to `[4096, 64, 64]` (row, group, position in the group), subtracts the zero points and
  multiplies by the scales broadcast along the last axis, and reshapes back to `[4096, 4096]` before the contraction. A
  reshape keeps the row-major position, so entry `(n, k)` of the weight is entry `(n, k / 64, k % 64)` of the three-axis
  product, whose code is entry `(n, k)` again and whose scale and zero point are those of group `k / 64`: the index
  equations below are that arithmetic, and nothing else is needed.
-/
import proofs.«115405_j62723702391220_1_alg».proof.Proof.Gen.ReferenceIdeal.Read
import proofs.«115405_j62723702391220_1_alg».proof.Proof.Spec

noncomputable section

namespace Cert.ReferenceIdeal.Linear

open Idealize.ShloMosaic Idealize.ShloMosaic.ValueIdx
open Cert.ReferenceIdeal Cert.ReferenceIdeal.Read Cert.DequantLinear

/-- The activation the contraction reads at position `k` of entry `(p, s, n)` is `x (p, s, k)`. -/
theorem lidx_eq (p : Fin 4) (s : Fin 2048) (n k : Fin 4096) : lidx_main_v9 (ix3 p s n) k = ix3 p s k := by
  funext a
  match a with
  | ⟨0, _⟩ => rfl
  | ⟨1, _⟩ => rfl
  | ⟨2, _⟩ => rfl

/-- The code behind weight entry `(n, k)`, through both reshapes, is code `(n, k)`. -/
theorem code_idx_eq (p : Fin 4) (s : Fin 2048) (n k : Fin 4096) :
    idx_main_v1 (idx_main_v8 (ridx_main_v9 (ix3 p s n) k)) = ix2 n k := by
  have hn := n.isLt
  have hk := k.isLt
  funext a
  apply Fin.ext
  match a with
  | ⟨0, _⟩ =>
    show (((n.val * 4096 + k.val) / 4096 * 64 + (n.val * 4096 + k.val) / 64 % 64) * 64 + (n.val * 4096 + k.val) % 64) / 4096 = n.val
    omega
  | ⟨1, _⟩ =>
    show (((n.val * 4096 + k.val) / 4096 * 64 + (n.val * 4096 + k.val) / 64 % 64) * 64 + (n.val * 4096 + k.val) % 64) % 4096 = k.val
    omega

/-- The zero point behind weight entry `(n, k)` is that of row `n`, group `k / 64`. -/
theorem zp_idx_eq (p : Fin 4) (s : Fin 2048) (n k : Fin 4096) :
    idx_main_v2 (idx_main_v3 (idx_main_v8 (ridx_main_v9 (ix3 p s n) k))) = ix2 n (grp k) := by
  have hn := n.isLt
  have hk := k.isLt
  funext a
  apply Fin.ext
  match a with
  | ⟨0, _⟩ =>
    show (n.val * 4096 + k.val) / 4096 = n.val
    omega
  | ⟨1, _⟩ =>
    show (n.val * 4096 + k.val) / 64 % 64 = k.val / 64
    omega

/-- The scale behind weight entry `(n, k)` is that of row `n`, group `k / 64`. -/
theorem sc_idx_eq (p : Fin 4) (s : Fin 2048) (n k : Fin 4096) :
    idx_main_v5 (idx_main_v6 (idx_main_v8 (ridx_main_v9 (ix3 p s n) k))) = ix2 n (grp k) := by
  have hn := n.isLt
  have hk := k.isLt
  funext a
  apply Fin.ext
  match a with
  | ⟨0, _⟩ =>
    show (n.val * 4096 + k.val) / 4096 = n.val
    omega
  | ⟨1, _⟩ =>
    show (n.val * 4096 + k.val) / 64 % 64 = k.val / 64
    omega

/-- The bias added at entry `(p, s, n)` is `bias n`. -/
theorem bias_idx_eq (p : Fin 4) (s : Fin 2048) (n : Fin 4096) : idx_main_v10 (idx_main_v11 (ix3 p s n)) = ix1 n := by
  funext a
  match a with
  | ⟨0, _⟩ => rfl

/-- The reference's weight stage at `(n, k)` is the dequantised weight. -/
theorem weight_stage (x1 : (⟨S4096x4096, .i32⟩ : BufTy).Contents (Elt Ideal)) (x2 x3 : (⟨S4096x64, .f32⟩ : BufTy).Contents (Elt Ideal))
    (p : Fin 4) (s : Fin 2048) (n k : Fin 4096) :
    val_main_v8 (F := Ideal) x1 x2 x3 (ridx_main_v9 (ix3 p s n) k) = weight x1 x2 x3 n k := by
  rw [val_main_v8_apply, val_main_v7_apply, val_main_v4_apply, val_main_v1_apply, val_main_v0_apply, val_main_v3_apply,
    val_main_v2_apply, val_main_v6_apply, val_main_v5_apply, code_idx_eq, zp_idx_eq, sc_idx_eq]
  rfl

/-- The reference's result at entry `(p, s, n)`. -/
theorem result_at (x0 : (⟨S4x2048x4096, .f32⟩ : BufTy).Contents (Elt Ideal)) (x1 : (⟨S4096x4096, .i32⟩ : BufTy).Contents (Elt Ideal))
    (x2 x3 : (⟨S4096x64, .f32⟩ : BufTy).Contents (Elt Ideal)) (x4 : (⟨S4096, .f32⟩ : BufTy).Contents (Elt Ideal))
    (p : Fin 4) (s : Fin 2048) (n : Fin 4096) :
    val_main_v12 (F := Ideal) x0 x1 x2 x3 x4 (ix3 p s n) = outAt x0 x1 x2 x3 x4 p s n := by
  rw [val_main_v12_apply, val_main_v9_apply, val_main_v11_apply, val_main_v10_apply, bias_idx_eq]
  show (∑ k : Fin 4096, _) + _ = (∑ k : Fin 4096, _) + _
  congr 1
  refine Finset.sum_congr rfl fun k _ => ?_
  rw [lidx_eq, weight_stage]

/-- THE REFERENCE IS THE LAYER: its last stage is `out` of the five arguments (the scales are argument 2, the zero points
    argument 3). -/
theorem result_eq (x0 : (⟨S4x2048x4096, .f32⟩ : BufTy).Contents (Elt Ideal)) (x1 : (⟨S4096x4096, .i32⟩ : BufTy).Contents (Elt Ideal))
    (x2 x3 : (⟨S4096x64, .f32⟩ : BufTy).Contents (Elt Ideal)) (x4 : (⟨S4096, .f32⟩ : BufTy).Contents (Elt Ideal)) :
    val_main_v12 (F := Ideal) x0 x1 x2 x3 x4 = out x0 x1 x2 x3 x4 := by
  funext i
  obtain ⟨p, s, n, rfl⟩ : ∃ (p : Fin 4) (s : Fin 2048) (n : Fin 4096), i = ix3 p s n := ⟨i 0, i 1, i 2, eq_ix3 i⟩
  exact result_at x0 x1 x2 x3 x4 p s n

end Cert.ReferenceIdeal.Linear

end
-- ==== Proof.Payload.lean ====
/-
  One grid point's arithmetic, read at an entry: the value the body stores at `(r, c)` of its `[256, 256]` block is
  `Σ_k x (r, k) · ((q (c, k) − zp (c, k / 64)) · sc (c, k / 64)) + bias (0, c)` of the five blocks it loads.

  Three things are not entry-by-entry operations. The scales and zero points `[256, 64]` are given a unit last axis,
  repeated 64 times along it, and flattened to `[256, 4096]`: position `k` of a row then holds its group's entry
  `k / 64`, because `(c, g, e)` of `[256, 64, 64]` sits at row-major position `(c · 64 + g) · 64 + e`, which is
  `c · 4096 + k` exactly for `g = k / 64`, `e = k % 64` (`group_spread`). The matrix product into a zero accumulator
  contracts the LAST axis of both operands, so entry `(r, c)` is the sum over `k` of `l (r, k) · w (c, k)`
  (`contract_at`). The bias row `[1, 256]` is repeated down the 256 rows (`bias_spread`). The changes of float format
  on the way into the product are the identity on the extended reals.
-/
import proofs.«115405_j62723702391220_1_alg».proof.Proof.Gen.KernelIdeal.Skeleton
import proofs.«115405_j62723702391220_1_alg».proof.Proof.Spec
import Idealize.ShloMosaic.PureOps.Ideal.Laws
import Idealize.ShloMosaic.Lib.ValueIdx
import Idealize.ShloMosaic.Lib.Pipeline.Value

noncomputable section

namespace Cert.KernelIdeal.Linear

open Idealize.ShloMosaic Idealize.ShloMosaic.ValueIdx
open Cert.KernelIdeal Cert.KernelIdeal.Gen Cert.DequantLinear

/-- The position of a contraction index inside its group. -/
def inGrp (k : Fin 4096) : Fin 64 := ⟨k.val % 64, Nat.mod_lt _ (by decide)⟩

/-- A per-group array spread over the positions: entry `(c, k)` of the `[256, 4096]` array is the group's entry
    `(c, k / 64)`. -/
theorem group_spread (v : Vec Ideal S256x64 .f32) (c : Fin 256) (k : Fin 4096) :
    shapeCast S256x4096 (broadcastTo S256x64x64 (shapeCast S256x64x1 (shapeCast S256x64x1 v shapeCasts_S256x64_S256x64x1)
        shapeCasts_S256x64x1_S256x64x1) broadcasts_S256x64x1_S256x64x64) shapeCasts_S256x64x64_S256x4096 (ix2 c k)
      = v (ix2 c (grp k)) := by
  have hc := c.isLt
  have hk := k.isLt
  refine (shapeCast_apply _ shapeCasts_S256x64x64_S256x4096 (ix2 c k) (ix3 c (grp k) (inGrp k)) ?_).trans ?_
  · rw [Shape.rowMajor_val_three, Shape.rowMajor_val_two]
    show (c.val * 64 + k.val / 64) * 64 + k.val % 64 = c.val * 4096 + k.val
    omega
  refine (broadcastTo_apply _ broadcasts_S256x64x1_S256x64x64 (ix3 c (grp k) (inGrp k)) (ix3 c (grp k) (0 : Fin 1)) ?_).trans ?_
  · intro a
    match a with
    | ⟨0, _⟩ => show c.val = if (256 : Nat) = 1 then 0 else c.val; rw [if_neg (by decide)]
    | ⟨1, _⟩ => show (grp k).val = if (64 : Nat) = 1 then 0 else (grp k).val; rw [if_neg (by decide)]
    | ⟨2, _⟩ => show 0 = if (1 : Nat) = 1 then 0 else (inGrp k).val; rw [if_pos rfl]
  rw [shapeCast_self]
  refine shapeCast_apply v shapeCasts_S256x64_S256x64x1 (ix3 c (grp k) (0 : Fin 1)) (ix2 c (grp k)) ?_
  rw [Shape.rowMajor_val_three, Shape.rowMajor_val_two]
  show c.val * 64 + (grp k).val = (c.val * 64 + (grp k).val) * 1 + 0
  omega

/-- The bias row repeated down the rows: entry `(r, c)` is the row's entry `(0, c)`. -/
theorem bias_spread (v : Vec Ideal S1x256 .f32) (r c : Fin 256) :
    broadcastTo S256x256 (shapeCast S1x256 v shapeCasts_S1x256_S1x256) broadcasts_S1x256_S256x256 (ix2 r c) = v (ix2 0 c) := by
  rw [shapeCast_self]
  refine broadcastTo_apply v broadcasts_S1x256_S256x256 (ix2 r c) (ix2 (0 : Fin 1) c) ?_
  intro a
  match a with
  | ⟨0, _⟩ => show 0 = if (1 : Nat) = 1 then 0 else r.val; rw [if_pos rfl]
  | ⟨1, _⟩ => show c.val = if (256 : Nat) = 1 then 0 else c.val; rw [if_neg (by decide)]

theorem lhs_row (i : S256x256.Idx) (qk : dot_S256x4096_S256x4096_S256x256_1_1_0_0_n_n.contr.Idx) :
    (dot_S256x4096_S256x4096_S256x256_1_1_0_0_n_n.lhsIdx i qk 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl

theorem rhs_row (i : S256x256.Idx) (qk : dot_S256x4096_S256x4096_S256x256_1_1_0_0_n_n.contr.Idx) :
    (dot_S256x4096_S256x4096_S256x256_1_1_0_0_n_n.rhsIdx i qk 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl

/-- The matrix product into a zero accumulator, both operands contracted along their last axis: entry `(r, c)` is the sum
    over `k` of `l (r, k) · w (c, k)`. -/
theorem contract_at (l w : FVec Ideal S256x4096 .bf16) (r c : Fin 256) :
    matmul dot_S256x4096_S256x4096_S256x256_1_1_0_0_n_n none l w (constant S256x256 .f32 0x00000000#32) (ix2 r c)
      = ∑ k : Fin 4096, l (ix2 r k) * w (ix2 c k) := by
  simp only [matmul]
  rw [Ideal.matmul_constant_zero_apply,
    ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 r c)
      ((contrEquiv1 dot_S256x4096_S256x4096_S256x256_1_1_0_0_n_n 4096 rfl rfl).symm k) = ix2 r k :=
    funext fun a => Fin.ext (by
      match a with
      | ⟨0, _⟩ => exact lhs_row _ _
      | ⟨1, _⟩ => exact (dot_S256x4096_S256x4096_S256x256_1_1_0_0_n_n.lhsIdx_val_of_single rfl _ _).trans hk)
  have er : dot_S256x4096_S256x4096_S256x256_1_1_0_0_n_n.rhsIdx (ix2 r c)
      ((contrEquiv1 dot_S256x4096_S256x4096_S256x256_1_1_0_0_n_n 4096 rfl rfl).symm k) = ix2 c k :=
    funext fun a => Fin.ext (by
      match a with
      | ⟨0, _⟩ => exact rhs_row _ _
      | ⟨1, _⟩ => exact (dot_S256x4096_S256x4096_S256x256_1_1_0_0_n_n.rhsIdx_val_of_single rfl _ _).trans hk)
  rw [el, er]

/-- WHAT ONE POINT STORES, at entry `(r, c)` of its block: the layer's row-by-row formula on the five loaded blocks. -/
theorem pay_at (x0 : Vec Ideal S256x4096 .f32) (x1 : Vec Ideal S256x4096 .i32) (x2 x3 : Vec Ideal S256x64 .f32)
    (x4 : Vec Ideal S1x256 .f32) (r c : Fin 256) :
    k0_pay1 (F := Ideal) x0 x1 x2 x3 x4 (ix2 r c) = dotAt x0 x1 x2 x3 x4 r c := by
  unfold k0_pay1
  refine (addf_apply _ _ _).trans ?_
  refine (congrArg₂ (· + ·) (contract_at _ _ r c) (bias_spread x4 r c)).trans ?_
  unfold dotAt
  refine congrArg (· + x4 (ix2 0 c)) (Finset.sum_congr rfl fun k _ => ?_)
  refine congrArg₂ (· * ·) ?_ ?_
  · rw [truncf_apply, shapeCast_self]
  · rw [truncf_apply]
    refine (mulf_apply _ _ _).trans ?_
    refine (congrArg₂ (· * ·) ((subf_apply _ _ _).trans (congrArg₂ (· - ·) (sitofp_apply _ _) (group_spread x3 c k)))
      (group_spread x2 c k)).trans ?_
    rfl

end Cert.KernelIdeal.Linear

end
-- ==== Proof.Grid.lean ====
/-
  The grid of the one region: 32 × 16 points in row-major order, so point `t` is `(t / 16, t % 16)`. The result's window
  is at block `(t / 16, t % 16)`; the activations' window follows the block row, the windows of the codes, scales, zero
  points and bias the block column; every block of the result is some point's. The index maps are decided once over the
  512 points; the rest is arithmetic.
-/
import proofs.«115405_j62723702391220_1_alg».proof.Proof.Gen.KernelIdeal.Points
import proofs.«115405_j62723702391220_1_alg».proof.Proof.Gen.KernelIdeal.Launch

noncomputable section

namespace Cert.KernelIdeal.Linear

open Idealize.ShloMosaic Idealize.ShloMosaic.TcCoe Idealize.SL.Sem
open Cert.KernelIdeal Cert.KernelIdeal.Gen

/-- The result's window at point `t` is at block `(t / 16, t % 16)`: the points run over the grid in row-major order. -/
theorem result_block : ∀ t : Fin cfg0.N, win0_5.index t (0 : Fin 2) = t.val / 16 ∧ win0_5.index t (1 : Fin 2) = t.val % 16 :=
  (by decide +kernel : ∀ t : Fin grid0.N, _)

/-- How the input windows move over the grid: the activations follow the result's block row, the codes, scales, zero
    points and bias the result's block column, and nothing else moves. -/
theorem block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2) :=
  (by decide +kernel : ∀ t : Fin grid0.N, _)

/-- The result's block indices stay inside the 32 × 16 blocks of the array. -/
theorem block_bounds (t : Fin cfg0.N) : win0_5.index t (0 : Fin 2) < 32 ∧ win0_5.index t (1 : Fin 2) < 16 := by
  have hN : cfg0.N = 512 := N_0
  have ht : t.val < cfg0.N := t.isLt
  obtain ⟨h0, h1⟩ := result_block t
  rw [h0, h1]
  omega

/-- Every block of the result is some point's: block `(a, b)` is point `16·a + b`'s. -/
theorem block_onto (a : Fin 32) (b : Fin 16) :
    ∃ t : Fin cfg0.N, win0_5.index t (0 : Fin 2) = a.val ∧ win0_5.index t (1 : Fin 2) = b.val := by
  have hN : cfg0.N = 512 := N_0
  have ha := a.isLt
  have hb := b.isLt
  refine ⟨⟨a.val * 16 + b.val, by omega⟩, ?_⟩
  obtain ⟨h0, h1⟩ := result_block ⟨a.val * 16 + b.val, by omega⟩
  rw [h0, h1]
  constructor
  · show (a.val * 16 + b.val) / 16 = a.val; omega
  · show (a.val * 16 + b.val) % 16 = b.val; omega

end Cert.KernelIdeal.Linear

end
-- ==== Proof.BlockReads.lean ====
/-
  Each block a grid point loads, read at a local entry, is its array — as the region finds it — read at the matching
  global entry: a block's element sits at block index × block size + its coordinate inside the block. Point `(a, b)` reads
  rows `256·a + r` of the flattened activations, rows `256·b + n` of the codes, scales and zero points, and columns
  `256·b + n` of the bias row.
-/
import proofs.«115405_j62723702391220_1_alg».proof.Proof.Gen.KernelIdeal.Frame
import proofs.«115405_j62723702391220_1_alg».proof.Proof.Grid
import proofs.«115405_j62723702391220_1_alg».proof.Proof.Spec
import Idealize.ShloMosaic.Lib.Pipeline.Value

noncomputable section

namespace Cert.KernelIdeal.Linear

open Idealize.ShloMosaic Idealize.ShloMosaic.TcCoe Idealize.ShloMosaic.ValueIdx Idealize.SL.Sem
open Idealize.ShloMosaic.Pipeline (Dat)
open Cert.KernelIdeal Cert.KernelIdeal.Gen Cert.DequantLinear

variable (m : (ℓ : Loc nD τ sig) → Buf (Elt Ideal) ℓ)

/-! ## Each loaded block, read at a local entry, is its array at the global entry -/

theorem acts_block (c : Dev nD) (t : Fin cfg0.N) (r : Fin 256) (k : Fin 4096) (R : Fin 8192)
    (hR : R.val = win0_5.index t (0 : Fin 2) * 256 + r.val) :
    (iblk m c 0 t : Vec Ideal S256x4096 .f32) (ix2 r k) = (V m c main_v0 : S8192x4096.Idx → EReal) (ix2 R k) := by
  obtain ⟨e00, e01, -⟩ := block_indices t
  unfold iblk
  rw [View.read_apply]
  show V m c main_v0 _ = V m c main_v0 _
  refine congrArg (V m c main_v0) (funext fun a => Fin.ext ?_)
  match a with
  | ⟨0, _⟩ => show win0_0.index t (0 : Fin 2) * 256 + 1 * r.val = R.val; rw [e00, hR]; omega
  | ⟨1, _⟩ => show win0_0.index t (1 : Fin 2) * 4096 + 1 * k.val = k.val; rw [e01]; omega

theorem codes_block (c : Dev nD) (t : Fin cfg0.N) (n : Fin 256) (k : Fin 4096) (C : Fin 4096)
    (hC : C.val = win0_5.index t (1 : Fin 2) * 256 + n.val) :
    (iblk m c 1 t : Vec Ideal S256x4096 .i32) (ix2 n k) = (V m c main_arg1 : S4096x4096.Idx → BitVec 32) (ix2 C k) := by
  obtain ⟨-, -, e10, e11, -⟩ := block_indices t
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * n.val = C.val; rw [e10, hC]; omega
  | ⟨1, _⟩ => show win0_1.index t (1 : Fin 2) * 4096 + 1 * k.val = k.val; rw [e11]; omega

theorem scales_block (c : Dev nD) (t : Fin cfg0.N) (n : Fin 256) (g : Fin 64) (C : Fin 4096)
    (hC : C.val = win0_5.index t (1 : Fin 2) * 256 + n.val) :
    (iblk m c 2 t : Vec Ideal S256x64 .f32) (ix2 n g) = (V m c main_arg2 : S4096x64.Idx → EReal) (ix2 C g) := by
  obtain ⟨-, -, -, -, e20, e21, -⟩ := block_indices t
  unfold iblk
  rw [View.read_apply]
  show V m c main_arg2 _ = V m c main_arg2 _
  refine congrArg (V m c main_arg2) (funext fun a => Fin.ext ?_)
  match a with
  | ⟨0, _⟩ => show win0_2.index t (0 : Fin 2) * 256 + 1 * n.val = C.val; rw [e20, hC]; omega
  | ⟨1, _⟩ => show win0_2.index t (1 : Fin 2) * 64 + 1 * g.val = g.val; rw [e21]; omega

theorem zeros_block (c : Dev nD) (t : Fin cfg0.N) (n : Fin 256) (g : Fin 64) (C : Fin 4096)
    (hC : C.val = win0_5.index t (1 : Fin 2) * 256 + n.val) :
    (iblk m c 3 t : Vec Ideal S256x64 .f32) (ix2 n g) = (V m c main_arg3 : S4096x64.Idx → EReal) (ix2 C g) := by
  obtain ⟨-, -, -, -, -, -, e30, e31, -⟩ := block_indices t
  unfold iblk
  rw [View.read_apply]
  show V m c main_arg3 _ = V m c main_arg3 _
  refine congrArg (V m c main_arg3) (funext fun a => Fin.ext ?_)
  match a with
  | ⟨0, _⟩ => show win0_3.index t (0 : Fin 2) * 256 + 1 * n.val = C.val; rw [e30, hC]; omega
  | ⟨1, _⟩ => show win0_3.index t (1 : Fin 2) * 64 + 1 * g.val = g.val; rw [e31]; omega

theorem bias_block (c : Dev nD) (t : Fin cfg0.N) (n : Fin 256) (C : Fin 4096)
    (hC : C.val = win0_5.index t (1 : Fin 2) * 256 + n.val) :
    (iblk m c 4 t : Vec Ideal S1x256 .f32) (ix2 0 n) = (V m c main_v1 : S1x4096.Idx → EReal) (ix2 0 C) := by
  obtain ⟨-, -, -, -, -, -, -, -, e40, e41⟩ := block_indices t
  unfold iblk
  rw [View.read_apply]
  show V m c main_v1 _ = V m c main_v1 _
  refine congrArg (V m c main_v1) (funext fun a => Fin.ext ?_)
  match a with
  | ⟨0, _⟩ => show win0_4.index t (0 : Fin 2) * 1 + 1 * 0 = 0; rw [e40]
  | ⟨1, _⟩ => show win0_4.index t (1 : Fin 2) * 256 + 1 * n.val = C.val; rw [e41, hC]; omega

end Cert.KernelIdeal.Linear

end
-- ==== Proof.Blocks.lean ====
/-
  From blocks to the array. Entry `(r, n)` of the block point `(a, b)` writes back is entry `(256·a + r, 256·b + n)` of
  the `[8192, 4096]` result, and the layer's formula on the point's five blocks at the local entry is the formula on the
  whole arrays at the global one — so what the point writes back is block `(a, b)` of ONE whole-array function, `dot` of
  the five arrays as the region finds them (`flushed_eq`). The 512 blocks tile the array (entry `(R, C)` lies in block
  `(R / 256, C / 256)`), hence the array ends holding that function (`final`).
-/
import proofs.«115405_j62723702391220_1_alg».proof.Proof.Gen.KernelIdeal.Frame
import proofs.«115405_j62723702391220_1_alg».proof.Proof.Payload
import proofs.«115405_j62723702391220_1_alg».proof.Proof.BlockReads
import Idealize.ShloMosaic.Lib.Pipeline.Value

noncomputable section

namespace Cert.KernelIdeal.Linear

open Idealize.ShloMosaic Idealize.ShloMosaic.TcCoe Idealize.ShloMosaic.ValueIdx Idealize.SL.Sem
open Idealize.ShloMosaic.Pipeline (Dat)
open Cert.KernelIdeal Cert.KernelIdeal.Gen Cert.DequantLinear

variable (m : (ℓ : Loc nD τ sig) → Buf (Elt Ideal) ℓ) (ρ : Dev nD → PrngReg)

theorem zero_offsets : (![0, 0] : Fin 2 → Nat) = fun _ => 0 := funext fun a => by fin_cases a <;> rfl

/-- The flattened result, as one function of the five arrays the region finds. -/
def flatOut (c : Dev nD) : S8192x4096.Idx → EReal :=
  dot (V m c main_v0 : S8192x4096.Idx → EReal) (V m c main_arg1 : S4096x4096.Idx → BitVec 32)
    (V m c main_arg2 : S4096x64.Idx → EReal) (V m c main_arg3 : S4096x64.Idx → EReal) (V m c main_v1 : S1x4096.Idx → EReal)

/-- The layer's formula on a point's five blocks at local entry `(r, n)` is the formula on the whole arrays at the
    global entry. -/
theorem dot_block (c : Dev nD) (t : Fin cfg0.N) (r n : Fin 256) (R : Fin 8192) (C : Fin 4096)
    (hR : R.val = win0_5.index t (0 : Fin 2) * 256 + r.val) (hC : C.val = win0_5.index t (1 : Fin 2) * 256 + n.val) :
    dotAt (iblk m c 0 t : Vec Ideal S256x4096 .f32) (iblk m c 1 t : Vec Ideal S256x4096 .i32)
        (iblk m c 2 t : Vec Ideal S256x64 .f32) (iblk m c 3 t : Vec Ideal S256x64 .f32) (iblk m c 4 t : Vec Ideal S1x256 .f32) r n
      = dotAt (V m c main_v0 : S8192x4096.Idx → EReal) (V m c main_arg1 : S4096x4096.Idx → BitVec 32)
        (V m c main_arg2 : S4096x64.Idx → EReal) (V m c main_arg3 : S4096x64.Idx → EReal) (V m c main_v1 : S1x4096.Idx → EReal) R C := by
  unfold dotAt weight
  rw [bias_block m c t n C hC]
  refine congrArg (· + (V m c main_v1 : S1x4096.Idx → EReal) (ix2 0 C)) (Finset.sum_congr rfl fun k _ => ?_)
  rw [acts_block m c t r k R hR, codes_block m c t n k C hC, scales_block m c t n (grp k) C hC, zeros_block m c t n (grp k) C hC]

/-! ## What a point writes back, and the array after the last point -/

/-- WHAT POINT `t` WRITES BACK is block `t` of `flatOut`. -/
theorem flushed_eq (c : Dev nD) (t : Fin cfg0.N) :
    (dats m 0 c).flushed 5 t = ((cfg0.win 5).blk t).view.read (Elt Ideal) (flatOut m c) := by
  show (cfg0.win 5).cut (grid0.coords t) ((dats m 0 c).after 5 t) = _
  rw [after0_5]
  unfold out0_5
  rw [View.canon_unit_zero zero_offsets]
  simp only [View.ld_unit_zero (S := S256x4096) zero_offsets, View.ld_unit_zero (S := S256x64) zero_offsets,
    View.ld_unit_zero (S := S1x256) zero_offsets]
  obtain ⟨b0, b1⟩ := block_bounds t
  funext j
  obtain ⟨r, n, rfl⟩ : ∃ (r n : Fin 256), j = ix2 r n := ⟨j 0, j 1, eq_ix2 (n0 := 256) (n1 := 256) j⟩
  rw [View.read_apply]
  refine (pay_at (iblk m c 0 t) (iblk m c 1 t) (iblk m c 2 t) (iblk m c 3 t) (iblk m c 4 t) r n).trans ?_
  refine (dot_block m c t r n ⟨win0_5.index t (0 : Fin 2) * 256 + r.val, by have := r.isLt; omega⟩
    ⟨win0_5.index t (1 : Fin 2) * 256 + n.val, by have := n.isLt; omega⟩ rfl rfl).trans ?_
  unfold flatOut dot
  refine congrArg₂ (dotAt _ _ _ _ _) (Fin.ext ?_) (Fin.ext ?_)
  · show win0_5.index t (0 : Fin 2) * 256 + r.val = win0_5.index t (0 : Fin 2) * 256 + 1 * r.val; omega
  · show win0_5.index t (1 : Fin 2) * 256 + n.val = win0_5.index t (1 : Fin 2) * 256 + 1 * n.val; omega

/-- An entry of the array is in point `t`'s block iff each coordinate is in the block's range on its axis. -/
theorem mem_block (t : Fin cfg0.N) (i : S8192x4096.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v2).slice (win0_5.rect t)).set ↔ _
  rw [View.set_slice_whole, Rect.mem_set_unit]
  exact Iff.rfl

/-- The blocks tile the array: entry `(R, C)` lies in block `(R / 256, C / 256)`. -/
theorem covered (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  obtain ⟨t, q0, q1⟩ := block_onto ⟨(i 0).val / 256, by omega⟩ ⟨(i 1).val / 256, by omega⟩
  have q0' : win0_5.index t (0 : Fin 2) = (i 0).val / 256 := q0
  have q1' : win0_5.index t (1 : Fin 2) = (i 1).val / 256 := q1
  refine ⟨t, flush0_5 t, ?_⟩
  rw [mem_block]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 256 ≤ (i 1).val ∧ (i 1).val < win0_5.index t (1 : Fin 2) * 256 + 256
    omega

/-- THE ARRAY after the last point is `flatOut`. -/
theorem final (c : Dev nD) : (dats m 0 c).arrAt 5 cfg0.N = flatOut m c :=
  (dats m 0 c).arrAt_eq_of_cover 5 (flatOut m c) (fun t _ => flushed_eq m c t) covered

end Cert.KernelIdeal.Linear

end
-- ==== Proof.Tail.lean ====
/-
  The kernel program's result. Around the one region the program only reshapes: the activations `[4, 2048, 4096]` to
  `[8192, 4096]` and the bias `[4096]` to one row `[1, 4096]` before it, the region's `[8192, 4096]` array back to
  `[4, 2048, 4096]` after it. The region leaves `dot` of the flattened arrays in its array (`final`), so the program's
  result is flatten – compute row by row – split again, which is the layer itself (`out_flat`).
-/
import proofs.«115405_j62723702391220_1_alg».proof.Proof.Gen.KernelIdeal.Frame
import proofs.«115405_j62723702391220_1_alg».proof.Proof.Blocks
import Idealize.ShloMosaic.Lib.StableHlo.Run
import Idealize.ShloMosaic.Lib.Tactic

noncomputable section

namespace Cert.KernelIdeal.Linear

open Idealize.ShloMosaic Idealize.ShloMosaic.TcCoe Idealize.ShloMosaic.ValueIdx Idealize.SL.Sem
open Idealize.ShloMosaic.Pipeline (Dat)
open Cert.KernelIdeal Cert.KernelIdeal.Gen Cert.DequantLinear

variable (m : (ℓ : Loc nD τ sig) → Buf (Elt Ideal) ℓ) (ρ : Dev nD → PrngReg)

/-- The region finds the activations flattened. -/
theorem acts_flat (c : Dev nD) : (V m c main_v0 : S8192x4096.Idx → EReal)
    = shapeCast S8192x4096 (m ((c : Thread nD τ).loc main_arg0) : S4x2048x4096.Idx → EReal) shapeCasts_S4x2048x4096_S8192x4096 := by
  show StableHlo.after hostOps0 (fun b => m (c, b)) (Proc.devRef .tc main_v0) = _
  after_results
  rfl

/-- The region finds the bias as one row. -/
theorem bias_row (c : Dev nD) : (V m c main_v1 : S1x4096.Idx → EReal)
    = shapeCast S1x4096 (m ((c : Thread nD τ).loc main_arg4) : S4096.Idx → EReal) shapeCasts_S4096_S1x4096 := by
  show StableHlo.after hostOps0 (fun b => m (c, b)) (Proc.devRef .tc main_v1) = _
  after_results
  rfl

/-- THE PROGRAM'S RESULT is the layer of its five arguments. -/
theorem result_eq (c : Dev nD) :
    Pipeline.afterTail₀ cfgs (dats m) 0 (V0 m) [hostOps1] c main_v3
      = out (m ((c : Thread nD τ).loc main_arg0) : S4x2048x4096.Idx → EReal) (m ((c : Thread nD τ).loc main_arg1) : S4096x4096.Idx → BitVec 32)
          (m ((c : Thread nD τ).loc main_arg2) : S4096x64.Idx → EReal) (m ((c : Thread nD τ).loc main_arg3) : S4096x64.Idx → EReal)
          (m ((c : Thread nD τ).loc main_arg4) : S4096.Idx → EReal) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = flatOut m c :=
    (Pipeline.withArrays_arr spec0 launch0.win.arr_inj c _ _ 5).trans (final m c)
  refine (congrArg (fun A : S8192x4096.Idx → EReal => shapeCast S4x2048x4096 A shapeCasts_S8192x4096_S4x2048x4096) hw).trans ?_
  unfold flatOut
  rw [acts_flat m c, bias_row m c, V_main_arg1 m c, V_main_arg2 m c, V_main_arg3 m c]
  exact out_flat _ _ _ _ _ _ _ _

/-- THE RUN, READ: every weakly fair execution of the kernel program ends with its result array at the layer of the five
    arguments, and the arguments as they were. -/
theorem run : θ_run defs (onTc (τ := τ) (main (F := Ideal))) ⟨m, fun _ => 0, ρ⟩ (fun r => ∀ c : Dev nD,
      r.2.mem ((c.tc : Thread nD τ).loc main_v3)
        = out (m ((c : Thread nD τ).loc main_arg0) : S4x2048x4096.Idx → EReal) (m ((c : Thread nD τ).loc main_arg1) : S4096x4096.Idx → BitVec 32)
            (m ((c : Thread nD τ).loc main_arg2) : S4096x64.Idx → EReal) (m ((c : Thread nD τ).loc main_arg3) : S4096x64.Idx → EReal)
            (m ((c : Thread nD τ).loc main_arg4) : S4096.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Linear

end
-- ==== Proof.lean ====
/-
  The certificate of a weight-only quantised linear layer: `out (p, s, n) = Σ_k x (p, s, k) · w (n, k) + bias n` with the
  weight dequantised group by group, `w (n, k) = (q (n, k) − zp (n, k / 64)) · sc (n, k / 64)`, one scale and one zero
  point per 64 consecutive positions.

  The kernel program flattens the activations to `[8192, 4096]`, runs one region over a 32 × 16 grid — each point
  dequantises a `[256, 4096]` block of weight rows, contracts a `[256, 4096]` block of activation rows against it and adds
  the bias — and splits the rows of the result again. The reference dequantises the whole weight through a
  `[4096, 64, 64]` reshape and contracts the three-axis activations against it. On the extended reals both are the one
  function `out` of Proof/Spec.lean: the changes of float format on the way into the kernel's matrix product are the
  identity there, tiling does not change a sum, and the only law joining the two sides is that a reshape keeps the
  row-major position. No entry is ever cancelled or distributed over a sum, so the precondition (finite inputs) is not
  used.

  Proof/Spec.lean states `out` and the flattening law; Proof/RefSpec.lean reads the reference's stages at an entry;
  Proof/Payload.lean reads one grid point's arithmetic at an entry; Proof/Grid.lean, Proof/BlockReads.lean and
  Proof/Blocks.lean go from the blocks the points write back to the region's whole array; Proof/Tail.lean reads the
  reshapes around the region and states the kernel program's run. Here: the five conjuncts.
-/
import proofs.«115405_j62723702391220_1_alg».proof.Defs
import proofs.«115405_j62723702391220_1_alg».proof.Proof.Gen.Kernel
import proofs.«115405_j62723702391220_1_alg».proof.Proof.Gen.Kernel.Frame
import proofs.«115405_j62723702391220_1_alg».proof.Proof.Gen.KernelIdeal
import proofs.«115405_j62723702391220_1_alg».proof.Proof.Gen.KernelIdeal.Frame
import proofs.«115405_j62723702391220_1_alg».proof.Proof.Gen.ReferenceIdeal
import proofs.«115405_j62723702391220_1_alg».proof.Proof.Gen.ReferenceIdeal.Run
import proofs.«115405_j62723702391220_1_alg».proof.Proof.Gen.ReferenceIdeal.Read
import proofs.«115405_j62723702391220_1_alg».proof.Proof.Gen.Pre_finite_inputs
import proofs.«115405_j62723702391220_1_alg».proof.Proof.RefSpec
import proofs.«115405_j62723702391220_1_alg».proof.Proof.Tail
import Idealize.ShloMosaic.Adequacy
import Idealize.ShloMosaic.Init

noncomputable section

namespace Cert.Proof

open Idealize.ShloMosaic Idealize.SL.Sem

/-- The kernel program as printed runs, faults nowhere, and leaves its arguments unchanged. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote no operation of the kernel program. -/
theorem preserves : Cert.preserves_Kernel_KernelIdeal := trivial

/-- From memories that agree on the five arguments, the kernel program's result array ends at `out` of the arguments
    (Proof/Tail.lean) and the reference's last stage is `out` of the same arguments (Proof/RefSpec.lean). -/
theorem algebraic : Cert.algebraic_KernelIdeal_ReferenceIdeal := by
  intro m ρ m' ρ' _ hagree
  refine ⟨_, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Linear.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
